-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x56x56 : Shape := ⟨4, ![32, 512, 56, 56]⟩
abbrev S32x512 : Shape := ⟨2, ![32, 512]⟩
abbrev S512x32 : Shape := ⟨2, ![512, 32]⟩
abbrev S_ : Shape := ⟨0, ![]⟩

class Facts : Prop where
  bcast_S_S32x512x56x56 : S_.BroadcastsInDim S32x512x56x56 (![] : Fin 0 → Fin S32x512x56x56.rank)
  reducesTo_S32x512x56x56_S_d0_1_2_3 : S32x512x56x56.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S32x512x56x56 .f32) (main_arg1 : FVec F S32x512 .f32) (main_arg2 : FVec F S512x32 .f32) : IVec S_ 1 :=
  let main_v0 : FVec F S32x512x56x56 .f32 := Host.absf main_arg0
  let main_cst : FVec F S_ .f32 := constant S_ .f32 0x7F800000#32
  let main_v1 : FVec F S32x512x56x56 .f32 := broadcastInDim S32x512x56x56 ![] bcast_S_S32x512x56x56 main_cst
  let main_v2 : IVec S32x512x56x56 1 := cmpf .olt main_v0 main_v1
  let main_c : IVec S_ 1 := constantI S_ 1 1#1
  let main_v3 : IVec S_ 1 := (fun x v => Host.reduce IntOp.andi x v reducesTo_S32x512x56x56_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  main_v13
-- ==== Kernel.lean ====
abbrev S32x512x56x56 : Shape := ⟨4, ![32, 512, 56, 56]⟩
abbrev S32x512 : Shape := ⟨2, ![32, 512]⟩
abbrev S512x32 : Shape := ⟨2, ![512, 32]⟩
abbrev S32x512x3136 : Shape := ⟨3, ![32, 512, 3136]⟩
abbrev S1x512x3136 : Shape := ⟨3, ![1, 512, 3136]⟩
abbrev S512x3136 : Shape := ⟨2, ![512, 3136]⟩
abbrev S512 : Shape := ⟨1, ![512]⟩
abbrev S512x1 : Shape := ⟨2, ![512, 1]⟩
abbrev S1x512 : Shape := ⟨2, ![1, 512]⟩
abbrev S1x32 : Shape := ⟨2, ![1, 32]⟩

abbrev nBuf : Space → Nat
  | .hbm => 8
  | .vmem => 6
  | .smem => 0
  | _ => 0

abbrev bufTy : (tb : Table) → Fin (tcTables nBuf tb) → BufTy
  | .hbm, ⟨0, _⟩ => ⟨S32x512x56x56, .f32⟩
  | .hbm, ⟨1, _⟩ => ⟨S32x512, .f32⟩
  | .hbm, ⟨2, _⟩ => ⟨S512x32, .f32⟩
  | .hbm, ⟨3, _⟩ => ⟨S32x512x3136, .f32⟩
  | .hbm, ⟨4, _⟩ => ⟨S512x32, .f32⟩
  | .hbm, ⟨5, _⟩ => ⟨S32x512, .f32⟩
  | .hbm, ⟨6, _⟩ => ⟨S32x512x3136, .f32⟩
  | .hbm, ⟨7, _⟩ => ⟨S32x512x56x56, .f32⟩
  | .local _ .vmem, ⟨0, _⟩ => ⟨S1x512x3136, .f32⟩
  | .local _ .vmem, ⟨1, _⟩ => ⟨S1x512x3136, .f32⟩
  | .local _ .vmem, ⟨2, _⟩ => ⟨S512x32, .f32⟩
  | .local _ .vmem, ⟨3, _⟩ => ⟨S32x512, .f32⟩
  | .local _ .vmem, ⟨4, _⟩ => ⟨S1x512x3136, .f32⟩
  | .local _ .vmem, ⟨5, _⟩ => ⟨S1x512x3136, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x512x56x56_S32x512x3136 : S32x512x56x56.ShapeCasts S32x512x3136
  transposes_S32x512_S512x32_1_0 : S32x512.Transposes [1, 0] S512x32
  transposes_S512x32_S32x512_1_0 : S512x32.Transposes [1, 0] S32x512
  inb_S1x512x3136_S1x512x3136_0_0_0 : ∀ a, (![0, 0, 0] : Fin 3 → Nat) a + S1x512x3136.size a ≤ S1x512x3136.size a
  h_S1x512x3136 : 0 < S1x512x3136.numel
  shapeCasts_S1x512x3136_S512x3136 : S1x512x3136.ShapeCasts S512x3136
  reduces_S512x3136_S512 : S512x3136.Reduces [1] S512
  shapeCasts_S512_S512x1 : S512.ShapeCasts S512x1
  transposes_S512x1_p1_0_S1x512 : S512x1.Transposes [1, 0] S1x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  transposes_S1x512_p1_0_S512x1 : S1x512.Transposes [1, 0] S512x1
  broadcasts_S512x1_S512x3136 : S512x1.Broadcasts S512x3136
  shapeCasts_S512x3136_S1x512x3136 : S512x3136.ShapeCasts S1x512x3136
  shapeCasts_S32x512x3136_S32x512x56x56 : S32x512x3136.ShapeCasts S32x512x56x56
  dot_S1x512_S512x32_S1x32_1_0_0_1_n_n_wf : DotDims.WF S1x512 S512x32 S1x32 [1] [0] [0] [1] [] []
  dot_S1x32_S32x512_S1x512_1_0_0_1_n_n_wf : DotDims.WF S1x32 S32x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3136.size a ≤ S32x512x3136.size a
  hwx0_0 : ∀ i : grid0.Coords, EltTy.bits .f32 = 32 ∨ (Rect.block (s := S32x512x3136) S1x512x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x3136.size a ≤ S32x512x3136.size a
  hwx0_3 : ∀ i : grid0.Coords, EltTy.bits .f32 = 32 ∨ (Rect.block (s := S32x512x3136) S1x512x3136.size (cc0_transform_3 i) (hinb0_3 i)).WholeWords (EltTy.packing .f32)

variable [Facts₀]

def dot_S1x512_S512x32_S1x32_1_0_0_1_n_n : DotDims S1x512 S512x32 S1x32 where
  lhsContracting := [1]
  rhsContracting := [0]
  lhsNonContracting := [0]
  rhsNonContracting := [1]
  lhsBatch := []
  rhsBatch := []
  wf := dot_S1x512_S512x32_S1x32_1_0_0_1_n_n_wf
def dot_S1x32_S32x512_S1x512_1_0_0_1_n_n : DotDims S1x32 S32x512 S1x512 where
  lhsContracting := [1]
  rhsContracting := [0]
  lhsNonContracting := [0]
  rhsNonContracting := [1]
  lhsBatch := []
  rhsBatch := []
  wf := dot_S1x32_S32x512_S1x512_1_0_0_1_n_n_wf

abbrev win0_0 : Pipeline.Window sig grid0 :=
  Pipeline.Window.ofSpec (Memref.whole main_v0) S1x512x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x3136.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x56x56 : Shape := ⟨4, ![32, 512, 56, 56]⟩
abbrev S32x512 : Shape := ⟨2, ![32, 512]⟩
abbrev S512x32 : Shape := ⟨2, ![512, 32]⟩
abbrev S_ : Shape := ⟨0, ![]⟩
abbrev S32x32 : Shape := ⟨2, ![32, 32]⟩
abbrev S32x512x1x1 : Shape := ⟨4, ![32, 512, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x512x56x56, .f32⟩
  | .hbm, ⟨1, _⟩ => ⟨S32x512, .f32⟩
  | .hbm, ⟨2, _⟩ => ⟨S512x32, .f32⟩
  | .hbm, ⟨3, _⟩ => ⟨S_, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S_, .f32⟩
  | .hbm, ⟨9, _⟩ => ⟨S32x512, .f32⟩
  | .hbm, ⟨10, _⟩ => ⟨S32x32, .f32⟩
  | .hbm, ⟨11, _⟩ => ⟨S_, .f32⟩
  | .hbm, ⟨12, _⟩ => ⟨S32x32, .f32⟩
  | .hbm, ⟨13, _⟩ => ⟨S32x32, .f32⟩
  | .hbm, ⟨14, _⟩ => ⟨S32x512, .f32⟩
  | .hbm, ⟨15, _⟩ => ⟨S32x32, .f32⟩
  | .hbm, ⟨16, _⟩ => ⟨S_, .f32⟩
  | .hbm, ⟨17, _⟩ => ⟨S32x32, .f32⟩
  | .hbm, ⟨18, _⟩ => ⟨S32x32, .f32⟩
  | .hbm, ⟨19, _⟩ => ⟨S32x512, .f32⟩
  | .hbm, ⟨20, _⟩ => ⟨S32x512, .f32⟩
  | .hbm, ⟨21, _⟩ => ⟨S32x512, .f32⟩
  | .hbm, ⟨22, _⟩ => ⟨S32x512, .f32⟩
  | .hbm, ⟨23, _⟩ => ⟨S_, .f32⟩
  | .hbm, ⟨24, _⟩ => ⟨S32x512, .f32⟩
  | .hbm, ⟨25, _⟩ => ⟨S32x512, .f32⟩
  | .hbm, ⟨26, _⟩ => ⟨S_, .f32⟩
  | .hbm, ⟨27, _⟩ => ⟨S32x512, .f32⟩
  | .hbm, ⟨28, _⟩ => ⟨S32x512, .f32⟩
  | .hbm, ⟨29, _⟩ => ⟨S32x512x1x1, .f32⟩
  | .hbm, ⟨30, _⟩ => ⟨S32x512x56x56, .f32⟩
  | .hbm, ⟨31, _⟩ => ⟨S32x512x56x56, .f32⟩
  | _, _ => ⟨S32x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_cst : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  reducesTo_S32x512x56x56_S32x512_d2_3 : S32x512x56x56.ReducesTo [2, 3] S32x512
  h_S_ : 0 < S_.numel
  bcast_S_S32x512 : S_.BroadcastsInDim S32x512 (![] : Fin 0 → Fin S32x512.rank)
  bcast_S_S32x32 : S_.BroadcastsInDim S32x32 (![] : Fin 0 → Fin S32x32.rank)
  bcast_S32x512_S32x512x1x1_0_1 : S32x512.BroadcastsInDim S32x512x1x1 (![0, 1] : Fin 2 → Fin S32x512x1x1.rank)
  bcast_S32x512x1x1_S32x512x56x56_0_1_2_3 : S32x512x1x1.BroadcastsInDim S32x512x56x56 (![0, 1, 2, 3] : Fin 4 → Fin S32x512x56x56.rank)
  dot_S32x512_S32x512_S32x32_1_1_0_0_n_n_wf : DotDims.WF S32x512 S32x512 S32x32 [1] [1] [0] [0] [] []
  dot_S32x32_S512x32_S32x512_1_1_0_0_n_n_wf : DotDims.WF S32x32 S512x32 S32x512 [1] [1] [0] [0] [] []

variable [Facts₀]

def dot_S32x512_S32x512_S32x32_1_1_0_0_n_n : DotDims S32x512 S32x512 S32x32 where
  lhsContracting := [1]
  rhsContracting := [1]
  lhsNonContracting := [0]
  rhsNonContracting := [0]
  lhsBatch := []
  rhsBatch := []
  wf := dot_S32x512_S32x512_S32x32_1_1_0_0_n_n_wf
def dot_S32x32_S512x32_S32x512_1_1_0_0_n_n : DotDims S32x32 S512x32 S32x512 where
  lhsContracting := [1]
  rhsContracting := [1]
  lhsNonContracting := [0]
  rhsNonContracting := [0]
  lhsBatch := []
  rhsBatch := []
  wf := dot_S32x32_S512x32_S32x512_1_1_0_0_n_n_wf

class Facts : Prop extends Facts₀ where

variable [Facts]
-- ==== Proof.LibPoolFold.lean ====
/-
  Sums and maxima over the source entries that reduce to one result index, on the extended reals.

  A reduction along some axes of an array gathers, at a result index `j`, the source entries whose kept
  coordinates are `j`.  When a family `e : ι → source index` lists exactly those entries, each once
  (`e` injective, every `e p` reduces to `j`, every entry reducing to `j` is some `e p`), a reduction by
  addition is the sum over `ι` of the source at `e p` — for the vector unit's `multi_reduction <add>` and,
  with the starting value added, for the host's `reduce` with an `add` body.  Any number of axes may be
  reduced: the caller chooses `ι` (a product of coordinate ranges, say) and supplies the listing.

  `maxOver a f` is the greatest of `a` and the values `f p`.  It is determined by its upper bounds:
  `maxOver a f ≤ c` exactly when `a ≤ c` and `f p ≤ c` for every `p`.  So it depends only on the SET of
  values `f` takes (`maxOver_eq_of_values`), in particular not on how the family is indexed
  (`maxOver_comp_equiv`); `max` is commutative, associative and idempotent, and no finiteness of the entries
  is used: the laws hold at `+∞` and `-∞` as well.  A reduction by `maximum` — the vector unit's
  `multi_reduction <maximumf>` or the host's `reduce` with a `maximum` body, along any axes — read at a result
  index is `maxOver` over ANY family that lists the values of the source entries reducing to it.
  `rowMax_apply` is the one-axis case of an `[n, c]` array: the maximum of a row.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.PoolFold

open Idealize.ShloMosaic Idealize.ShloMosaic.ValueIdx

variable {ι κ : Type} [Fintype ι] [Fintype κ]

/-! ## Sums -/

/-- A sum over the members of a finite type that satisfy `P` is the sum over any family listing them once. -/
theorem sum_filter_eq_sum_family {α M : Type} [Fintype α] [AddCommMonoid M] (P : α → Prop) [DecidablePred P]
    (x : α → M) (e : ι → α) (hinj : Function.Injective e) (hP : ∀ p, P (e p)) (hsurj : ∀ i, P i → ∃ p, e p = i) :
    ∑ i ∈ Finset.univ.filter P, x i = ∑ p, x (e p) := by
  refine (Finset.sum_nbij e (fun p _ => Finset.mem_filter.mpr ⟨Finset.mem_univ _, hP p⟩) hinj.injOn
    (fun i hi => ?_) (fun _ _ => rfl)).symm
  obtain ⟨p, rfl⟩ := hsurj i (Finset.mem_filter.mp (Finset.mem_coe.mp hi)).2
  exact ⟨p, Finset.mem_coe.mpr (Finset.mem_univ p), rfl⟩

/-- The vector unit's reduction by addition, at a result index `j`: the sum of the source over a family
    listing once each entry whose kept coordinates are `j`. -/
theorem multiReduction_add_eq_sum {s t : Shape} {φ : FTy} {axes : List (Fin s.rank)} (src : FVec Ideal s φ)
    (acc : BitVec φ.bits) (h : s.Reduces axes t) (hφ : FKind.Formats φ) (hacc : acc = FKind.add.neutral φ hφ)
    (j : t.Idx) (e : ι → s.Idx) (hinj : Function.Injective e) (hdrop : ∀ p, h.drop (e p) = j)
    (hsurj : ∀ i, h.drop i = j → ∃ p, e p = i) :
    multiReduction .add axes t src acc h hφ hacc j = ∑ p, src (e p) :=
  sum_filter_eq_sum_family (fun i => h.drop i = j) src e hinj hdrop hsurj

/-- The host's one-operand reduction with an `add` body, likewise, from its starting value's one entry. -/
theorem hostReduceAdd_eq_sum {s t u : Shape} {φ : FTy} {axes : List (Fin s.rank)} (x : FVec Ideal s φ)
    (init : FVec Ideal u φ) (h : s.ReducesTo axes t) (hu : 0 < u.numel) (j : t.Idx) (e : ι → s.Idx)
    (hinj : Function.Injective e) (hdrop : ∀ p, h.drop (e p) = j) (hsurj : ∀ i, h.drop i = j → ∃ p, e p = i) :
    Host.reduceAdd x init h hu j = init (Shape.Idx.first hu) + ∑ p, x (e p) :=
  congrArg (init (Shape.Idx.first hu) + ·) (sum_filter_eq_sum_family (fun i => h.drop i = j) x e hinj hdrop hsurj)

/-! ## Maxima -/

/-- The greatest of `a` and the values `f p`, `p` ranging over a finite type. -/
def maxOver (a : EReal) (f : ι → EReal) : EReal := (Finset.univ : Finset ι).fold max a f

/-- Its upper bounds: those of `a` that are upper bounds of every `f p`. -/
theorem maxOver_le_iff (a : EReal) (f : ι → EReal) (c : EReal) : maxOver a f ≤ c ↔ a ≤ c ∧ ∀ p, f p ≤ c := by
  unfold maxOver
  rw [Finset.fold_max_le]
  exact and_congr_right fun _ => ⟨fun h p => h p (Finset.mem_univ p), fun h p _ => h p⟩

/-- A value with those upper bounds is the maximum. -/
theorem eq_maxOver_of_le_iff {v a : EReal} {f : ι → EReal} (h : ∀ c, v ≤ c ↔ a ≤ c ∧ ∀ p, f p ≤ c) :
    v = maxOver a f :=
  eq_of_forall_ge_iff fun c => (h c).trans (maxOver_le_iff a f c).symm

/-- A fold of `max` from `a` over the members of a finite type that satisfy `P` is `maxOver a f`, for any
    family `f` taking exactly the values `x` takes on those members. -/
theorem fold_max_filter_eq_maxOver {α : Type} [Fintype α] (P : α → Prop) [DecidablePred P] (a : EReal)
    (x : α → EReal) (f : ι → EReal) (h1 : ∀ p, ∃ i, P i ∧ x i = f p) (h2 : ∀ i, P i → ∃ p, f p = x i) :
    (Finset.univ.filter P).fold max a x = maxOver a f := by
  refine eq_maxOver_of_le_iff fun c => ?_
  rw [Finset.fold_max_le]
  refine and_congr_right fun _ => ⟨fun h p => ?_, fun h i hi => ?_⟩
  · obtain ⟨i, hi, e⟩ := h1 p
    exact e ▸ h i (Finset.mem_filter.mpr ⟨Finset.mem_univ i, hi⟩)
  · obtain ⟨p, e⟩ := h2 i (Finset.mem_filter.mp hi).2
    exact e ▸ h p

/-- The maximum depends only on the values taken. -/
theorem maxOver_eq_of_values (a : EReal) (f : ι → EReal) (g : κ → EReal) (h1 : ∀ q, ∃ p, f p = g q)
    (h2 : ∀ p, ∃ q, g q = f p) : maxOver a f = maxOver a g := by
  refine eq_maxOver_of_le_iff fun c => ?_
  rw [maxOver_le_iff]
  refine and_congr_right fun _ => ⟨fun h q => ?_, fun h p => ?_⟩
  · obtain ⟨p, e⟩ := h1 q; exact e ▸ h p
  · obtain ⟨q, e⟩ := h2 p; exact e ▸ h q

/-- Re-indexing the family along a bijection does not change the maximum. -/
theorem maxOver_comp_equiv (a : EReal) (e : ι ≃ κ) (g : κ → EReal) : maxOver a (fun p => g (e p)) = maxOver a g :=
  maxOver_eq_of_values a _ g (fun q => ⟨e.symm q, by rw [e.apply_symm_apply]⟩) (fun p => ⟨e p, rfl⟩)

/-- Pointwise equal families have equal maxima. -/
theorem maxOver_congr (a : EReal) {f g : ι → EReal} (h : ∀ p, f p = g p) : maxOver a f = maxOver a g :=
  congrArg (maxOver a) (funext h)

/-- The vector unit's reduction by maximum, at a result index `j`, on the extended reals: the greatest of
    its starting value and the source entries whose kept coordinates are `j`, listed by any family `f`. -/
theorem multiReduction_max_eq_maxOver {s t : Shape} {φ : FTy} {axes : List (Fin s.rank)} (src : FVec Ideal s φ)
    (acc : BitVec φ.bits) (h : s.Reduces axes t) (hφ : FKind.Formats φ) (hacc : acc = FKind.maximumf.neutral φ hφ)
    (j : t.Idx) (f : ι → EReal) (h1 : ∀ p, ∃ i, h.drop i = j ∧ src i = f p)
    (h2 : ∀ i, h.drop i = j → ∃ p, f p = src i) :
    multiReduction .maximumf axes t src acc h hφ hacc j = maxOver (Ideal.ofBits φ acc) f := by
  rw [multiReduction_maximumf_eq_fold]
  exact fold_max_filter_eq_maxOver (fun i => h.drop i = j) _ src f h1 h2

/-- The host's one-operand reduction with a `maximum` body, likewise, from its starting value's one entry. -/
theorem hostReduce_max_eq_maxOver {s t u : Shape} {φ : FTy} {axes : List (Fin s.rank)} (x : FVec Ideal s φ)
    (init : FVec Ideal u φ) (h : s.ReducesTo axes t) (hu : 0 < u.numel) (j : t.Idx) (f : ι → EReal)
    (h1 : ∀ p, ∃ i, h.drop i = j ∧ x i = f p) (h2 : ∀ i, h.drop i = j → ∃ p, f p = x i) :
    Host.reduce (FloatOps.maximumf (F := Ideal) (φ := φ)) x init h hu j = maxOver (init (Shape.Idx.first hu)) f := by
  rw [Host.reduce_eq_fold]
  exact fold_max_filter_eq_maxOver (fun i => h.drop i = j) _ x f h1 h2

/-- The maximum of an `[n, c]` array along its second axis, started from -∞ (the word `0xFF800000`), reads, at
    row `q`, the greatest of -∞ and the row's entries. -/
theorem rowMax_apply {n c : ℕ} (src : FVec Ideal ⟨2, ![n, c]⟩ .f32)
    (h : (⟨2, ![n, c]⟩ : Shape).Reduces [1] ⟨1, ![n]⟩) (hφ : FKind.Formats .f32)
    (hacc : (0xFF800000#32 : BitVec 32) = 0xFF800000#32) (q : Fin n) :
    multiReduction .maximumf [1] ⟨1, ![n]⟩ src 0xFF800000#32 h hφ hacc (ix1 q)
      = maxOver (Ideal.ofBits .f32 0xFF800000#32) (fun k : Fin c => src (ix2 q k)) := by
  refine (Ideal.multiReduction_maximumf_single src 0xFF800000#32 h hφ hacc (ix1 q)).trans ?_
  unfold maxOver
  refine congrArg (fun g => (Finset.univ : Finset (Fin c)).fold max (Ideal.ofBits .f32 0xFF800000#32) g) (funext fun k => ?_)
  refine congrArg src (funext fun ax => Fin.ext ?_)
  match ax with
  | ⟨0, _⟩ => rfl
  | ⟨1, _⟩ => rfl

end Cert.PoolFold

end
-- ==== Proof.Spec.lean ====
/-
  Channel attention from pooled statistics, as one function of the argument arrays.

  For an activation array `x : [32, 512, 56, 56]` (batch, channel, height, width) and two weight matrices
  `w1 : [32, 512]`, `w2 : [512, 32]`, every channel `c` of every batch entry `b` is scaled by a gate in (0, 1):

    `avg(b, c) = (∑ over the 56·56 pixels of x(b, c, ·, ·)) / 3136`      (the mean of the channel's plane)
    `mx(b, c)  = the greatest of -∞ and the pixels of x(b, c, ·, ·)`     (its maximum)
    `hid(s)(k) = max (∑ c', s(c') · w1(k, c'), 0)`                       (a rectified hidden layer of 32 units)
    `mlp(s)(c) = ∑ k, hid(s)(k) · w2(c, k)`                              (back to 512 channels)
    `gate(b, c) = 1 / (1 + e^(-(mlp(avg(b,·))(c) + mlp(mx(b,·))(c))))`   (the logistic function of the sum)
    `G(b, c, h, w) = x(b, c, h, w) · gate(b, c)`.

  The pooled statistics are stated over an arbitrary finite family of values (`avgOf`, `maxOf`), because the
  two programs list a plane's pixels differently: one by the pair (row, column), the other by the flat
  position `p = 56 · row + column` of the plane laid out as 3136 entries.  `pix` is the bijection between the
  two listings; a sum and a maximum do not depend on the listing (`avgOf_comp_equiv`, `maxOf_comp_equiv`).
  The constants are kept as the words both programs carry: `0x45440000` is 3136, `0xFF800000` is -∞.  No
  finiteness of the entries is assumed anywhere: every step is a re-indexing of a sum or of a maximum.
-/
import Idealize.ShloMosaic.PureOps.Ideal
import Idealize.ShloMosaic.Lib.ValueIdx
import proofs.«153573_j8615704396004_2_alg».proof.Proof.LibPoolFold

noncomputable section

open scoped BigOperators

namespace Cert.Cam

open Idealize.ShloMosaic Idealize.ShloMosaic.ValueIdx Cert.PoolFold

variable {ι κ : Type} [Fintype ι] [Fintype κ]

/-! ## Pooling a finite family of values -/

/-- The family's sum divided by the constant 3136 (the word `0x45440000`). -/
def avgOf (f : ι → EReal) : EReal := Ideal.div (∑ q, f q) (Ideal.ofBits .f32 0x45440000#32)

/-- The greatest of -∞ (the word `0xFF800000`) and the family's values. -/
def maxOf (f : ι → EReal) : EReal := maxOver (Ideal.ofBits .f32 0xFF800000#32) f

/-- The mean does not depend on how the family is listed. -/
theorem avgOf_comp_equiv (e : ι ≃ κ) (g : κ → EReal) : avgOf (fun p => g (e p)) = avgOf g := by
  unfold avgOf
  rw [Equiv.sum_comp e g]

/-- Nor does the maximum. -/
theorem maxOf_comp_equiv (e : ι ≃ κ) (g : κ → EReal) : maxOf (fun p => g (e p)) = maxOf g :=
  maxOver_comp_equiv _ e g

/-- A plane's pixel (row, column) and its flat position `56 · row + column`. -/
def pix : Fin 56 × Fin 56 ≃ Fin 3136 where
  toFun q := ⟨q.1.val * 56 + q.2.val, by have := q.1.isLt; have := q.2.isLt; omega⟩
  invFun p := (⟨p.val / 56, by have := p.isLt; omega⟩, ⟨p.val % 56, Nat.mod_lt _ (by decide)⟩)
  left_inv q := by
    have h1 := q.1.isLt
    have h2 := q.2.isLt
    exact Prod.ext (Fin.ext (by show (q.1.val * 56 + q.2.val) / 56 = q.1.val; omega))
      (Fin.ext (by show (q.1.val * 56 + q.2.val) % 56 = q.2.val; omega))
  right_inv p := Fin.ext (by show p.val / 56 * 56 + p.val % 56 = p.val; omega)

theorem pix_symm_fst (p : Fin 3136) : ((pix.symm p).1 : ℕ) = p.val / 56 := rfl
theorem pix_symm_snd (p : Fin 3136) : ((pix.symm p).2 : ℕ) = p.val % 56 := rfl

/-! ## The gate of one batch entry, from its 512 pooled means and maxima -/

/-- The hidden layer: unit `k` is the rectified inner product of the statistics with row `k` of `W1`. -/
def hid (s : Fin 512 → EReal) (W1 : Fin 32 → Fin 512 → EReal) (k : Fin 32) : EReal := max (∑ c, s c * W1 k c) 0

/-- The output layer: channel `c` is the inner product of the hidden units with row `c` of `W2`. -/
def mlp (s : Fin 512 → EReal) (W1 : Fin 32 → Fin 512 → EReal) (W2 : Fin 512 → Fin 32 → EReal) (c : Fin 512) : EReal :=
  ∑ k, hid s W1 k * W2 c k

/-- The logistic function of the two branches' sum. -/
def gate (a mx : Fin 512 → EReal) (W1 : Fin 32 → Fin 512 → EReal) (W2 : Fin 512 → Fin 32 → EReal) (c : Fin 512) : EReal :=
  Ideal.logistic (mlp a W1 W2 c + mlp mx W1 W2 c)

/-! ## The result array -/

/-- The activations' shape. -/
abbrev SX : Shape := ⟨4, ![32, 512, 56, 56]⟩
/-- The first weight matrix's shape (hidden unit, channel). -/
abbrev SW1 : Shape := ⟨2, ![32, 512]⟩
/-- The second weight matrix's shape (channel, hidden unit). -/
abbrev SW2 : Shape := ⟨2, ![512, 32]⟩

/-- The mean of channel `c`'s plane in batch entry `b`. -/
def avgPool (x : SX.Idx → EReal) (b : Fin 32) (c : Fin 512) : EReal := avgOf fun q : Fin 56 × Fin 56 => x (ix4 b c q.1 q.2)

/-- Its maximum. -/
def maxPool (x : SX.Idx → EReal) (b : Fin 32) (c : Fin 512) : EReal := maxOf fun q : Fin 56 × Fin 56 => x (ix4 b c q.1 q.2)

/-- The gate of channel `c` in batch entry `b`. -/
def chanGate (x : SX.Idx → EReal) (w1 : SW1.Idx → EReal) (w2 : SW2.Idx → EReal) (b : Fin 32) (c : Fin 512) : EReal :=
  gate (avgPool x b) (maxPool x b) (fun k c' => w1 (ix2 k c')) (fun c' k => w2 (ix2 c' k)) c

/-- The result: every entry scaled by its channel's gate. -/
def G (x : SX.Idx → EReal) (w1 : SW1.Idx → EReal) (w2 : SW2.Idx → EReal) : SX.Idx → EReal :=
  fun i => x i * chanGate x w1 w2 ⟨(i 0).val, (i 0).isLt⟩ ⟨(i 1).val, (i 1).isLt⟩

theorem G_apply (x : SX.Idx → EReal) (w1 : SW1.Idx → EReal) (w2 : SW2.Idx → EReal) (b : Fin 32) (c : Fin 512)
    (h w : Fin 56) : G x w1 w2 (ix4 b c h w) = x (ix4 b c h w) * chanGate x w1 w2 b c := rfl

/-- The word `0x3F800000` is the number one. -/
theorem ofBits_one : Ideal.ofBits .f32 0x3F800000#32 = 1 := by
  simp [Ideal.ofBits, Ideal.ieee, -EReal.coe_mul]; norm_num

end Cert.Cam

end
-- ==== Proof.RefValue.lean ====
/-
  The reference program's result is `G` of its arguments.

  The reference pools every channel plane over its two spatial axes at once.  The entries of `x` that such a
  reduction gathers at `(b, c)` are exactly `x(b, c, h, w)`, one for each pixel `(h, w)` — the listing
  `pixIdx b c` — so its sum is the sum over the pixels (with the starting value 0 added in front) and its
  maximum the greatest of -∞ and the pixels.  Its two contractions pair the second axes of both operands, which
  is how `hid` and `mlp` are written.  It spells the logistic function as `1 / (1 + e^(-z))` with the constant
  one as a word; on the extended reals that expression IS the logistic function, at every `z`.  The last two
  broadcasts carry the gate of `(b, c)` to every pixel of the plane.
-/
import proofs.«153573_j8615704396004_2_alg».proof.Proof.Gen.ReferenceIdeal.Read
import proofs.«153573_j8615704396004_2_alg».proof.Proof.Spec
import proofs.«153573_j8615704396004_2_alg».proof.Proof.LibPoolFold

noncomputable section

open scoped BigOperators

namespace Cert.Cam.Ref

open Cert.ReferenceIdeal Cert.ReferenceIdeal.Gen Cert.ReferenceIdeal.Read
open Idealize.ShloMosaic Idealize.ShloMosaic.ValueIdx Cert.PoolFold Cert.Cam

/-- The activations, the first and the second weight matrix as the reference holds them. -/
abbrev XT : Type := (⟨S32x512x56x56, .f32⟩ : BufTy).Contents (Elt Ideal)
abbrev W1T : Type := (⟨S32x512, .f32⟩ : BufTy).Contents (Elt Ideal)
abbrev W2T : Type := (⟨S512x32, .f32⟩ : BufTy).Contents (Elt Ideal)

/-! ## The pixels of one channel plane, as the spatial reduction lists them -/

/-- Pixel `(h, w)` of channel `c` of batch entry `b`. -/
def pixIdx (b : Fin 32) (c : Fin 512) (q : Fin 56 × Fin 56) : S32x512x56x56.Idx := ix4 b c q.1 q.2

theorem pixIdx_inj (b : Fin 32) (c : Fin 512) : Function.Injective (pixIdx b c) := fun q q' h =>
  Prod.ext (congrFun h 2) (congrFun h 3)

/-- Reducing the two spatial axes sends every pixel of the plane to `(b, c)`. -/
theorem drop_pixIdx (b : Fin 32) (c : Fin 512) (q : Fin 56 × Fin 56) :
    reducesTo_S32x512x56x56_S32x512_d2_3.drop (pixIdx b c q) = ix2 b c := by
  funext a
  refine Fin.ext ?_
  match a with
  | ⟨0, _⟩ => exact reducesTo_S32x512x56x56_S32x512_d2_3.drop_apply_val_of_eq (pixIdx b c q) 0 0
  | ⟨1, _⟩ => exact reducesTo_S32x512x56x56_S32x512_d2_3.drop_apply_val_of_eq (pixIdx b c q) 1 1

/-- And only those. -/
theorem pixIdx_surj (b : Fin 32) (c : Fin 512) (i : S32x512x56x56.Idx)
    (hi : reducesTo_S32x512x56x56_S32x512_d2_3.drop i = ix2 b c) : ∃ q, pixIdx b c q = i := by
  have e0 : (i 0).val = b.val :=
    (reducesTo_S32x512x56x56_S32x512_d2_3.drop_apply_val_of_eq i 0 0).symm.trans
      (congrArg (fun j : S32x512.Idx => (j 0).val) hi)
  have e1 : (i 1).val = c.val :=
    (reducesTo_S32x512x56x56_S32x512_d2_3.drop_apply_val_of_eq i 1 1).symm.trans
      (congrArg (fun j : S32x512.Idx => (j 1).val) hi)
  refine ⟨(⟨(i 2).val, (i 2).isLt⟩, ⟨(i 3).val, (i 3).isLt⟩), ?_⟩
  funext a
  refine Fin.ext ?_
  match a with
  | ⟨0, _⟩ => exact e0.symm
  | ⟨1, _⟩ => exact e1.symm
  | ⟨2, _⟩ => rfl
  | ⟨3, _⟩ => rfl

/-! ## The pooled statistics -/

/-- The spatial sum at `(b, c)`: the starting value 0, then the plane's pixels. -/
theorem sum_at (x : XT) (b : Fin 32) (c : Fin 512) :
    val_main_v0 (F := Ideal) x (ix2 b c) = ∑ q : Fin 56 × Fin 56, x (ix4 b c q.1 q.2) := by
  unfold val_main_v0
  refine (hostReduceAdd_eq_sum x (val_main_cst (F := Ideal)) reducesTo_S32x512x56x56_S32x512_d2_3 h_S_ (ix2 b c)
    (pixIdx b c) (pixIdx_inj b c) (drop_pixIdx b c) (pixIdx_surj b c)).trans ?_
  show Ideal.ofBits .f32 0x00000000#32 + _ = _
  rw [Ideal.ofBits_zero_f32, zero_add]
  rfl

/-- The mean at `(b, c)`. -/
theorem avg_at (x : XT) (b : Fin 32) (c : Fin 512) : val_main_v2 (F := Ideal) x (ix2 b c) = avgPool x b c := by
  rw [val_main_v2_apply, sum_at, val_main_v1_apply, val_main_cst_0_apply]
  rfl

/-- The maximum at `(b, c)`. -/
theorem max_at (x : XT) (b : Fin 32) (c : Fin 512) : val_main_v3 (F := Ideal) x (ix2 b c) = maxPool x b c := by
  unfold val_main_v3
  exact hostReduce_max_eq_maxOver x (val_main_cst_1 (F := Ideal)) reducesTo_S32x512x56x56_S32x512_d2_3 h_S_ (ix2 b c)
    (fun q : Fin 56 × Fin 56 => x (ix4 b c q.1 q.2))
    (fun q => ⟨pixIdx b c q, drop_pixIdx b c q, rfl⟩)
    (fun i hi => by obtain ⟨q, rfl⟩ := pixIdx_surj b c i hi; exact ⟨q, rfl⟩)

/-! ## The two layers, on either statistic -/

theorem lidx4 (b : Fin 32) (k : Fin 32) (c' : Fin 512) : lidx_main_v4 (ix2 b k) c' = ix2 b c' := by
  funext a; match a with | ⟨0, _⟩ => rfl | ⟨1, _⟩ => rfl
theorem ridx4 (b : Fin 32) (k : Fin 32) (c' : Fin 512) : ridx_main_v4 (ix2 b k) c' = ix2 k c' := by
  funext a; match a with | ⟨0, _⟩ => rfl | ⟨1, _⟩ => rfl
theorem lidx6 (b : Fin 32) (c : Fin 512) (k : Fin 32) : lidx_main_v6 (ix2 b c) k = ix2 b k := by
  funext a; match a with | ⟨0, _⟩ => rfl | ⟨1, _⟩ => rfl
theorem ridx6 (b : Fin 32) (c : Fin 512) (k : Fin 32) : ridx_main_v6 (ix2 b c) k = ix2 c k := by
  funext a; match a with | ⟨0, _⟩ => rfl | ⟨1, _⟩ => rfl
theorem lidx7 (b : Fin 32) (k : Fin 32) (c' : Fin 512) : lidx_main_v7 (ix2 b k) c' = ix2 b c' := by
  funext a; match a with | ⟨0, _⟩ => rfl | ⟨1, _⟩ => rfl
theorem ridx7 (b : Fin 32) (k : Fin 32) (c' : Fin 512) : ridx_main_v7 (ix2 b k) c' = ix2 k c' := by
  funext a; match a with | ⟨0, _⟩ => rfl | ⟨1, _⟩ => rfl
theorem lidx9 (b : Fin 32) (c : Fin 512) (k : Fin 32) : lidx_main_v9 (ix2 b c) k = ix2 b k := by
  funext a; match a with | ⟨0, _⟩ => rfl | ⟨1, _⟩ => rfl
theorem ridx9 (b : Fin 32) (c : Fin 512) (k : Fin 32) : ridx_main_v9 (ix2 b c) k = ix2 c k := by
  funext a; match a with | ⟨0, _⟩ => rfl | ⟨1, _⟩ => rfl

/-- The hidden layer on the means. -/
theorem hid_avg_at (x : XT) (w1 : W1T) (b : Fin 32) (k : Fin 32) :
    val_main_v5 (F := Ideal) x w1 (ix2 b k) = hid (avgPool x b) (fun k c' => w1 (ix2 k c')) k := by
  rw [val_main_v5_apply, val_main_v4_apply, val_main_call0_v0_apply, val_main_call0_cst_apply]
  simp only [lidx4, ridx4, avg_at]
  show max _ (Ideal.ofBits .f32 0x00000000#32) = _
  rw [Ideal.ofBits_zero_f32]
  rfl

/-- The hidden layer on the maxima. -/
theorem hid_max_at (x : XT) (w1 : W1T) (b : Fin 32) (k : Fin 32) :
    val_main_v8 (F := Ideal) x w1 (ix2 b k) = hid (maxPool x b) (fun k c' => w1 (ix2 k c')) k := by
  rw [val_main_v8_apply, val_main_v7_apply, val_main_call1_v0_apply, val_main_call1_cst_apply]
  simp only [lidx7, ridx7, max_at]
  show max _ (Ideal.ofBits .f32 0x00000000#32) = _
  rw [Ideal.ofBits_zero_f32]
  rfl

/-- The output layer on the means. -/
theorem mlp_avg_at (x : XT) (w1 : W1T) (w2 : W2T) (b : Fin 32) (c : Fin 512) :
    val_main_v6 (F := Ideal) x w1 w2 (ix2 b c)
      = mlp (avgPool x b) (fun k c' => w1 (ix2 k c')) (fun c' k => w2 (ix2 c' k)) c := by
  rw [val_main_v6_apply]
  simp only [lidx6, ridx6, hid_avg_at]
  rfl

/-- The output layer on the maxima. -/
theorem mlp_max_at (x : XT) (w1 : W1T) (w2 : W2T) (b : Fin 32) (c : Fin 512) :
    val_main_v9 (F := Ideal) x w1 w2 (ix2 b c)
      = mlp (maxPool x b) (fun k c' => w1 (ix2 k c')) (fun c' k => w2 (ix2 c' k)) c := by
  rw [val_main_v9_apply]
  simp only [lidx9, ridx9, hid_max_at]
  rfl

/-! ## The gate and the result -/

/-- The reference's `1 / (1 + e^(-z))` at `(b, c)` is the gate. -/
theorem gate_at (x : XT) (w1 : W1T) (w2 : W2T) (b : Fin 32) (c : Fin 512) :
    val_main_v16 (F := Ideal) x w1 w2 (ix2 b c) = chanGate x w1 w2 b c := by
  rw [val_main_v16_apply, val_main_v15_apply, val_main_cst_3_apply, val_main_v14_apply, val_main_v13_apply,
    val_main_cst_2_apply, val_main_v12_apply, val_main_v11_apply, val_main_v10_apply, mlp_avg_at, mlp_max_at]
  show Ideal.div (Ideal.ofBits .f32 0x3F800000#32) (Ideal.ofBits .f32 0x3F800000#32 + Ideal.exp (-_)) = _
  rw [ofBits_one]
  rfl

theorem idx17 (b : Fin 32) (c : Fin 512) (h w : Fin 56) : idx_main_v17 (idx_main_v18 (ix4 b c h w)) = ix2 b c := by
  funext a; match a with | ⟨0, _⟩ => rfl | ⟨1, _⟩ => rfl

/-- The reference's result is `G`. -/
theorem result_eq (x : XT) (w1 : W1T) (w2 : W2T) : val_main_v19 (F := Ideal) x w1 w2 = G x w1 w2 := by
  funext i
  obtain ⟨b, c, h, w, rfl⟩ : ∃ (b : Fin 32) (c : Fin 512) (h w : Fin 56), i = ix4 b c h w :=
    ⟨i 0, i 1, i 2, i 3, eq_ix4 i⟩
  rw [val_main_v19_apply, val_main_v18_apply, val_main_v17_apply, idx17, gate_at, G_apply]
  rfl

end Cert.Cam.Ref

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.KernelPayload.lean ====
/-
  What one grid point computes, read at an index.

  A grid point holds one batch entry's block `x0 : [1, 512, 3136]` — 512 channel planes, each laid out as 3136
  entries — and the two weight matrices transposed, `x1 : [512, 32]` and `x2 : [32, 512]`.  It views the block
  as a `[512, 3136]` matrix, takes every row's sum (divided by 3136) and every row's maximum (from -∞), turns
  the two columns of 512 statistics into rows, sends each through the two layers as plain matrix products
  (a `[1, 512]` row times `[512, 32]`, rectified, times `[32, 512]`), adds the two branches, applies the
  logistic function, turns the row of 512 gates back into a column and multiplies every row of the matrix by
  its gate.  Read at `(c, p)` that is `x0(0, c, p) · gate(c)`, the gate computed from the row means and row
  maxima of the block, with `W1(k, c') = x1(c', k)` and `W2(c', k) = x2(k, c')`.
-/
import proofs.«153573_j8615704396004_2_alg».proof.Proof.Gen.KernelIdeal.Skeleton
import proofs.«153573_j8615704396004_2_alg».proof.Proof.Spec
import proofs.«153573_j8615704396004_2_alg».proof.Proof.LibDense
import proofs.«153573_j8615704396004_2_alg».proof.Proof.LibRowBlocks
import proofs.«153573_j8615704396004_2_alg».proof.Proof.LibPoolFold
import Idealize.ShloMosaic.Lib.ValueLayout
import Idealize.ShloMosaic.Lib.Pipeline.Value
import Idealize.ShloMosaic.PureOps.Ideal.Laws

noncomputable section

open scoped BigOperators

namespace Cert.Cam.Body

open Cert.KernelIdeal Cert.KernelIdeal.Gen
open Idealize.ShloMosaic Idealize.ShloMosaic.ValueIdx Cert.PoolFold Cert.Cam Cert.Dense Cert.RowBlocks

/-! ## The pooled statistics of a `[512, 3136]` matrix, as rows -/

/-- The column of row means, turned into a row, at channel `c'`: the mean of row `c'`. -/
theorem meanRow_at (v1 : FVec Ideal S512x3136 .f32) (hφ : FKind.Formats .f32)
    (ha : (0x00000000#32 : BitVec 32) = 0x00000000#32) (c' : Fin 512) :
    transpose S1x512 [1, 0] (divf (shapeCast S512x1 (multiReduction .add [1] S512 v1 0x00000000#32
        reduces_S512x3136_S512 hφ ha) shapeCasts_S512_S512x1) (broadcast S512x1 (Scalar.ofBits .f32 0x45440000#32)))
        transposes_S512x1_p1_0_S1x512 (ix2 (0 : Fin 1) c')
      = avgOf (fun p : Fin 3136 => v1 (ix2 c' p)) := by
  rw [transpose_ix2_apply, divf_apply, broadcast_apply, shapeCast_col_apply, rowSum_apply]
  rfl

/-- The column of row maxima, turned into a row, at channel `c'`: the maximum of row `c'`. -/
theorem maxRow_at (v1 : FVec Ideal S512x3136 .f32) (hφ : FKind.Formats .f32)
    (ha : (0xFF800000#32 : BitVec 32) = 0xFF800000#32) (c' : Fin 512) :
    transpose S1x512 [1, 0] (shapeCast S512x1 (multiReduction .maximumf [1] S512 v1 0xFF800000#32
        reduces_S512x3136_S512 hφ ha) shapeCasts_S512_S512x1) transposes_S512x1_p1_0_S1x512 (ix2 (0 : Fin 1) c')
      = maxOf (fun p : Fin 3136 => v1 (ix2 c' p)) := by
  rw [transpose_ix2_apply, shapeCast_col_apply, rowMax_apply]
  rfl

/-! ## The two layers on a row of statistics -/

/-- The rectified product of a row `s` with `x1`, at hidden unit `k`. -/
theorem hidden_at (s : FVec Ideal S1x512 .f32) (x1 : FVec Ideal S512x32 .f32) (k : Fin 32) :
    maximumf (matmul dot_S1x512_S512x32_S1x32_1_0_0_1_n_n (some .fp32) s (shapeCast S512x32 x1 shapeCasts_S512x32_S512x32)
        (constant S1x32 .f32 0x00000000#32)) (broadcast S1x32 (Scalar.ofBits .f32 0x00000000#32)) (ix2 (0 : Fin 1) k)
      = hid (fun c' => s (ix2 (0 : Fin 1) c')) (fun k c' => x1 (ix2 c' k)) k := by
  rw [maximumf_apply, broadcast_apply, shapeCast_self,
    matmul_zero_eq_mm dot_S1x512_S512x32_S1x32_1_0_0_1_n_n rfl rfl rfl rfl rfl rfl, mm_apply]
  show max _ (Ideal.ofBits .f32 0x00000000#32) = _
  rw [Ideal.ofBits_zero_f32]
  rfl

/-- The product of the hidden row with `x2`, at channel `c`. -/
theorem mlp_at (s : FVec Ideal S1x512 .f32) (x1 : FVec Ideal S512x32 .f32) (x2 : FVec Ideal S32x512 .f32) (c : Fin 512) :
    matmul dot_S1x32_S32x512_S1x512_1_0_0_1_n_n (some .fp32)
        (maximumf (matmul dot_S1x512_S512x32_S1x32_1_0_0_1_n_n (some .fp32) s (shapeCast S512x32 x1 shapeCasts_S512x32_S512x32)
          (constant S1x32 .f32 0x00000000#32)) (broadcast S1x32 (Scalar.ofBits .f32 0x00000000#32)))
        (shapeCast S32x512 x2 shapeCasts_S32x512_S32x512) (constant S1x512 .f32 0x00000000#32) (ix2 (0 : Fin 1) c)
      = mlp (fun c' => s (ix2 (0 : Fin 1) c')) (fun k c' => x1 (ix2 c' k)) (fun c' k => x2 (ix2 k c')) c := by
  rw [matmul_zero_eq_mm dot_S1x32_S32x512_S1x512_1_0_0_1_n_n rfl rfl rfl rfl rfl rfl, mm_apply]
  simp only [hidden_at]
  rw [shapeCast_self]
  rfl

/-! ## The stored block -/

/-- The value a grid point stores, at plane `c`, position `p`. -/
theorem pay_at (x0 : Vec Ideal S1x512x3136 .f32) (x1 : Vec Ideal S512x32 .f32) (x2 : Vec Ideal S32x512 .f32)
    (u : Fin 1) (c : Fin 512) (p : Fin 3136) :
    k0_pay1 (F := Ideal) x0 x1 x2 (ix3 u c p)
      = x0 (ix3 (0 : Fin 1) c p)
        * gate (fun c' => avgOf fun p' : Fin 3136 => x0 (ix3 (0 : Fin 1) c' p'))
            (fun c' => maxOf fun p' : Fin 3136 => x0 (ix3 (0 : Fin 1) c' p'))
            (fun k c' => x1 (ix2 c' k)) (fun c' k => x2 (ix2 k c')) c := by
  unfold k0_pay1
  dsimp only
  rw [shapeCast_ab_1ab_apply, mulf_apply, broadcastTo_col_apply, transpose_ix2_apply, shapeCast_1ab_ab_apply]
  unfold gate
  refine congrArg (x0 (ix3 (0 : Fin 1) c p) * ·) ?_
  show Ideal.logistic (_ + _) = _
  rw [mlp_at, mlp_at]
  refine congrArg Ideal.logistic (congrArg₂ (· + ·) ?_ ?_)
  · refine congrArg (fun s => mlp s (fun k c' => x1 (ix2 c' k)) (fun c' k => x2 (ix2 k c')) c) (funext fun c' => ?_)
    refine (meanRow_at _ _ _ c').trans (congrArg (avgOf (ι := Fin 3136)) (funext fun p' => ?_))
    exact shapeCast_1ab_ab_apply x0 _ c' p'
  · refine congrArg (fun s => mlp s (fun k c' => x1 (ix2 c' k)) (fun c' k => x2 (ix2 k c')) c) (funext fun c' => ?_)
    refine (maxRow_at _ _ _ c').trans (congrArg (maxOf (ι := Fin 3136)) (funext fun p' => ?_))
    exact shapeCast_1ab_ab_apply x0 _ c' p'

end Cert.Cam.Body

end
-- ==== Proof.KernelValue.lean ====
/-
  The kernel program's result is `G` of its arguments.

  Before the grid runs, the activations are re-laid as `[32, 512, 3136]` — every 56 × 56 plane as 3136 entries,
  pixel `(h, w)` at position `56 h + w` — and both weight matrices are transposed.  Grid point `t` reads
  batch entry `t` of the re-laid activations (a `[1, 512, 3136]` block) and both transposed matrices whole, and
  writes block `t` of a `[32, 512, 3136]` result.  By the payload's reading, entry `(c, p)` of that block is
  `x(t, c, h, w) · gate(t, c)` with `p = 56 h + w`: the row means and row maxima of the block are the plane
  means and maxima of batch entry `t`, because a sum and a maximum over the 3136 positions of a plane are the
  sum and the maximum over its pixels.  So every point writes a block of ONE array, `G` re-laid; the 32 blocks
  tile the result (point `t` covers batch entry `t`), hence the result IS `G` re-laid.  After the grid the
  result is laid back as `[32, 512, 56, 56]`, which undoes the re-laying: the program ends holding `G`.
-/
import proofs.«153573_j8615704396004_2_alg».proof.Proof.Gen.KernelIdeal.Frame
import proofs.«153573_j8615704396004_2_alg».proof.Proof.KernelPayload
import Idealize.ShloMosaic.Lib.Pipeline.Value
import Idealize.ShloMosaic.Lib.StableHlo.Run
import Idealize.ShloMosaic.Lib.ValueLayout

set_option maxRecDepth 16384

noncomputable section

open scoped BigOperators

namespace Cert.Cam.Kernel

open Cert.KernelIdeal Cert.KernelIdeal.Gen
open Idealize.ShloMosaic Idealize.ShloMosaic.TcCoe Idealize.SL.Sem Idealize.ShloMosaic.ValueIdx Cert.PoolFold Cert.Cam
open Idealize.ShloMosaic.Pipeline (Dat)

/-! ## A plane laid out as 3136 entries -/

/-- The re-laid activations at `(b, c, p)` are the activations at pixel `(p / 56, p % 56)` of plane `(b, c)`. -/
theorem flat_at (x : SX.Idx → EReal) (h : SX.ShapeCasts ⟨3, ![32, 512, 3136]⟩) (b : Fin 32) (c : Fin 512) (p : Fin 3136) :
    shapeCast ⟨3, ![32, 512, 3136]⟩ x h (ix3 b c p) = x (ix4 b c (pix.symm p).1 (pix.symm p).2) :=
  shapeCast_apply x h _ _ (by
    rw [Shape.rowMajor_val_four, Shape.rowMajor_val_three]
    show ((b.val * 512 + c.val) * 56 + p.val / 56) * 56 + p.val % 56 = (b.val * 512 + c.val) * 3136 + p.val
    omega)

/-- The mean over a plane's 3136 positions is the mean over its pixels. -/
theorem avg_flat (x : SX.Idx → EReal) (b : Fin 32) (c : Fin 512) :
    avgOf (fun p : Fin 3136 => x (ix4 b c (pix.symm p).1 (pix.symm p).2)) = avgPool x b c :=
  avgOf_comp_equiv pix.symm (fun q : Fin 56 × Fin 56 => x (ix4 b c q.1 q.2))

/-- Likewise the maximum. -/
theorem max_flat (x : SX.Idx → EReal) (b : Fin 32) (c : Fin 512) :
    maxOf (fun p : Fin 3136 => x (ix4 b c (pix.symm p).1 (pix.symm p).2)) = maxPool x b c :=
  maxOf_comp_equiv pix.symm (fun q : Fin 56 × Fin 56 => x (ix4 b c q.1 q.2))

/-- One grid point's block, read at an index: if the point holds batch entry `b` of the re-laid activations and
    both matrices transposed, what it stores at `(c, p)` is `G` at pixel `p` of plane `(b, c)`. -/
theorem block_at (x : SX.Idx → EReal) (w1 : SW1.Idx → EReal) (w2 : SW2.Idx → EReal) (b : Fin 32)
    (x0 : Vec Ideal S1x512x3136 .f32) (x1 : Vec Ideal S512x32 .f32) (x2 : Vec Ideal S32x512 .f32)
    (h0 : ∀ (c' : Fin 512) (p' : Fin 3136), x0 (ix3 (0 : Fin 1) c' p') = x (ix4 b c' (pix.symm p').1 (pix.symm p').2))
    (h1 : ∀ (c' : Fin 512) (k : Fin 32), x1 (ix2 c' k) = w1 (ix2 k c'))
    (h2 : ∀ (k : Fin 32) (c' : Fin 512), x2 (ix2 k c') = w2 (ix2 c' k))
    (u : Fin 1) (c : Fin 512) (p : Fin 3136) :
    k0_pay1 (F := Ideal) x0 x1 x2 (ix3 u c p) = G x w1 w2 (ix4 b c (pix.symm p).1 (pix.symm p).2) := by
  rw [Body.pay_at, G_apply]
  unfold chanGate
  simp only [h0, h1, h2, avg_flat, max_flat]

variable (m : (ℓ : Loc nD τ sig) → Buf (Elt Ideal) ℓ) (ρ : Dev nD → PrngReg)

/-! ## What the grid finds in its three input arrays -/

/-- The activations, re-laid. -/
theorem V_x (c : Dev nD) : (V m c main_v0 : S32x512x3136.Idx → EReal)
    = shapeCast S32x512x3136 (m ((c : Thread nD τ).loc main_arg0)) shapeCasts_S32x512x56x56_S32x512x3136 := by
  show StableHlo.after hostOps0 (fun b => m (c, b)) (Proc.devRef .tc main_v0) = _
  after_results
  rfl

/-- The first weight matrix, transposed. -/
theorem V_w1 (c : Dev nD) : (V m c main_v1 : S512x32.Idx → EReal)
    = transpose S512x32 [1, 0] (m ((c : Thread nD τ).loc main_arg1)) transposes_S32x512_S512x32_1_0 := by
  show StableHlo.after hostOps0 (fun b => m (c, b)) (Proc.devRef .tc main_v1) = _
  after_results

/-- The second weight matrix, transposed. -/
theorem V_w2 (c : Dev nD) : (V m c main_v2 : S32x512.Idx → EReal)
    = transpose S32x512 [1, 0] (m ((c : Thread nD τ).loc main_arg2)) transposes_S512x32_S32x512_1_0 := by
  show StableHlo.after hostOps0 (fun b => m (c, b)) (Proc.devRef .tc main_v2) = _
  after_results

/-! ## The blocks of grid point `t` -/

/-- Where each window's block sits at point `t`: the activations' and the result's at batch entry `t`, the two
    matrices' at the origin (decided over the 32 points). -/
theorem idx_facts : ∀ t : Fin cfg0.N, win0_0.index t (0 : Fin 3) = t.val ∧ win0_0.index t (1 : Fin 3) = 0
    ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The batch entry grid point `t` works on. -/
def bOf (t : Fin cfg0.N) : Fin 32 := ⟨t.val, lt_of_lt_of_eq t.isLt N_0⟩

/-- The activations' block at point `t` is batch entry `t`, plane by plane. -/
theorem blk0_at (c : Dev nD) (t : Fin cfg0.N) (c' : Fin 512) (p' : Fin 3136) :
    iblk m c 0 t (ix3 (0 : Fin 1) c' p')
      = m ((c : Thread nD τ).loc main_arg0) (ix4 (bOf t) c' (pix.symm p').1 (pix.symm p').2) := by
  obtain ⟨e0, e1, e2, -⟩ := idx_facts t
  show V m c main_v0 (((cfg0.win 0).blk t).view.emb (ix3 (0 : Fin 1) c' p')) = _
  have hj : ((cfg0.win 0).blk t).view.emb (ix3 (0 : Fin 1) c' p') = ix3 (bOf t) c' p' := by
    funext a; apply Fin.ext
    match a with
    | ⟨0, _⟩ => show win0_0.index t (0 : Fin 3) * 1 + 1 * 0 = t.val; omega
    | ⟨1, _⟩ => show win0_0.index t (1 : Fin 3) * 512 + 1 * c'.val = c'.val; omega
    | ⟨2, _⟩ => show win0_0.index t (2 : Fin 3) * 3136 + 1 * p'.val = p'.val; omega
  rw [hj, V_x]
  exact flat_at _ _ (bOf t) c' p'

/-- The first matrix's block is the whole transposed matrix. -/
theorem blk1_at (c : Dev nD) (t : Fin cfg0.N) (c' : Fin 512) (k : Fin 32) :
    iblk m c 1 t (ix2 c' k) = m ((c : Thread nD τ).loc main_arg1) (ix2 k c') := by
  obtain ⟨-, -, -, -, -, -, e0, e1, -⟩ := idx_facts t
  show V m c main_v1 (((cfg0.win 1).blk t).view.emb (ix2 c' k)) = _
  have hj : ((cfg0.win 1).blk t).view.emb (ix2 c' k) = ix2 c' k := by
    funext a; apply Fin.ext
    match a with
    | ⟨0, _⟩ => show win0_1.index t (0 : Fin 2) * 512 + 1 * c'.val = c'.val; omega
    | ⟨1, _⟩ => show win0_1.index t (1 : Fin 2) * 32 + 1 * k.val = k.val; omega
  rw [hj, V_w1]
  exact transpose_ix2_apply _ _ c' k

/-- The second matrix's block is the whole transposed matrix. -/
theorem blk2_at (c : Dev nD) (t : Fin cfg0.N) (k : Fin 32) (c' : Fin 512) :
    iblk m c 2 t (ix2 k c') = m ((c : Thread nD τ).loc main_arg2) (ix2 c' k) := by
  obtain ⟨-, -, -, -, -, -, -, -, e0, e1⟩ := idx_facts t
  show V m c main_v2 (((cfg0.win 2).blk t).view.emb (ix2 k c')) = _
  have hj : ((cfg0.win 2).blk t).view.emb (ix2 k c') = ix2 k c' := by
    funext a; apply Fin.ext
    match a with
    | ⟨0, _⟩ => show win0_2.index t (0 : Fin 2) * 32 + 1 * k.val = k.val; omega
    | ⟨1, _⟩ => show win0_2.index t (1 : Fin 2) * 512 + 1 * c'.val = c'.val; omega
  rw [hj, V_w2]
  exact transpose_ix2_apply _ _ k c'

/-! ## What point `t` writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- `G` of the arguments, re-laid as `[32, 512, 3136]`: what the grid's result array ends holding. -/
def Gflat (c : Dev nD) : S32x512x3136.Idx → EReal :=
  shapeCast S32x512x3136 (G (m ((c : Thread nD τ).loc main_arg0)) (m ((c : Thread nD τ).loc main_arg1))
    (m ((c : Thread nD τ).loc main_arg2))) shapeCasts_S32x512x56x56_S32x512x3136

/-- Point `t` writes back block `t` of `Gflat`. -/
theorem flushed_eq (c : Dev nD) (t : Fin cfg0.N) :
    (dats m 0 c).flushed 3 t = ((cfg0.win 3).blk t).view.read (Elt Ideal) (Gflat m c) := by
  show (cfg0.win 3).cut (grid0.coords t) ((dats m 0 c).after 3 t) = _
  rw [after0_3]
  unfold out0_3
  rw [View.canon_unit_zero hz3]
  simp only [View.ld_unit_zero (S := S1x512x3136) hz3, View.ld_unit_zero (S := S512x32) hz2,
    View.ld_unit_zero (S := S32x512) hz2]
  obtain ⟨-, -, -, e0, e1, e2, -⟩ := idx_facts t
  funext j
  obtain ⟨u, c', p, rfl⟩ : ∃ (u : Fin 1) (c' : Fin 512) (p : Fin 3136), j = ix3 u c' p := ⟨j 0, j 1, j 2, eq_ix3 j⟩
  show k0_pay1 (F := Ideal) (iblk m c 0 t) (iblk m c 1 t) (iblk m c 2 t) (ix3 u c' p)
    = Gflat m c (((cfg0.win 3).blk t).view.emb (ix3 u c' p))
  have hj : ((cfg0.win 3).blk t).view.emb (ix3 u c' p) = ix3 (bOf t) c' p := by
    funext a; apply Fin.ext
    match a with
    | ⟨0, _⟩ => show win0_3.index t (0 : Fin 3) * 1 + 1 * u.val = t.val; omega
    | ⟨1, _⟩ => show win0_3.index t (1 : Fin 3) * 512 + 1 * c'.val = c'.val; omega
    | ⟨2, _⟩ => show win0_3.index t (2 : Fin 3) * 3136 + 1 * p.val = p.val; omega
  rw [hj]
  unfold Gflat
  rw [flat_at]
  exact block_at _ _ _ (bOf t) (iblk m c 0 t) (iblk m c 1 t) (iblk m c 2 t) (blk0_at m c t) (blk1_at m c t)
    (blk2_at m c t) u c' p

/-! ## The result array after the grid -/

/-- An index is in point `t`'s block iff each coordinate is in the block's range on its axis. -/
theorem mem_blk (t : Fin cfg0.N) (i : S32x512x3136.Idx) :
    i ∈ ((cfg0.win 3).blk t).view.set ↔ ∀ a : Fin 3, win0_3.index t a * S1x512x3136.size a ≤ (i a).val
      ∧ (i a).val < win0_3.index t a * S1x512x3136.size a + S1x512x3136.size a := by
  show i ∈ ((View.whole main_v3).slice (win0_3.rect t)).set ↔ _
  rw [View.set_slice_whole, Rect.mem_set_unit]
  exact Iff.rfl

/-- Every index of the result is in the block of the point that works on its batch entry. -/
theorem cover (i : S32x512x3136.Idx) :
    ∃ t : Fin cfg0.N, (cfg0.win 3).flush t = true ∧ i ∈ ((cfg0.win 3).blk t).view.set := by
  have hi0 : (i 0).val < 32 := (i 0).isLt
  have hi1 : (i 1).val < 512 := (i 1).isLt
  have hi2 : (i 2).val < 3136 := (i 2).isLt
  refine ⟨⟨(i 0).val, lt_of_lt_of_eq hi0 N_0.symm⟩, flush0_3 _, ?_⟩
  obtain ⟨-, -, -, e0, e1, e2, -⟩ := idx_facts ⟨(i 0).val, lt_of_lt_of_eq hi0 N_0.symm⟩
  rw [mem_blk]
  intro a
  match a with
  | ⟨0, _⟩ =>
    show win0_3.index ⟨(i 0).val, _⟩ (0 : Fin 3) * 1 ≤ (i 0).val ∧ (i 0).val < win0_3.index ⟨(i 0).val, _⟩ (0 : Fin 3) * 1 + 1
    have e0' : win0_3.index ⟨(i 0).val, lt_of_lt_of_eq hi0 N_0.symm⟩ (0 : Fin 3) = (i 0).val := e0
    omega
  | ⟨1, _⟩ =>
    show win0_3.index ⟨(i 0).val, _⟩ (1 : Fin 3) * 512 ≤ (i 1).val ∧ (i 1).val < win0_3.index ⟨(i 0).val, _⟩ (1 : Fin 3) * 512 + 512
    omega
  | ⟨2, _⟩ =>
    show win0_3.index ⟨(i 0).val, _⟩ (2 : Fin 3) * 3136 ≤ (i 2).val ∧ (i 2).val < win0_3.index ⟨(i 0).val, _⟩ (2 : Fin 3) * 3136 + 3136
    omega

/-- The grid's result array ends holding `Gflat`. -/
theorem final (c : Dev nD) : (dats m 0 c).arrAt 3 cfg0.N = Gflat m c :=
  (dats m 0 c).arrAt_eq_of_cover 3 (Gflat m c) (fun t _ => flushed_eq m c t) cover

/-! ## Laid back as `[32, 512, 56, 56]` -/

/-- The program's result buffer after the last line: `G` of the arguments. -/
theorem tail_eq (c : Dev nD) :
    Pipeline.afterTail₀ cfgs (dats m) 0 (V0 m) [hostOps1] c main_v4
      = G (m ((c : Thread nD τ).loc main_arg0)) (m ((c : Thread nD τ).loc main_arg1)) (m ((c : Thread nD τ).loc main_arg2)) := by
  have hw : Pipeline.withArrays (cfgs 0).spec c (V0 m c) (fun w => (dats m 0 c).arrAt w (cfgs 0).N)
      (Proc.devRef .tc main_v3) = Gflat m c :=
    (Pipeline.withArrays_arr spec0 launch0.win.arr_inj c _ _ 3).trans (final m c)
  unfold Pipeline.afterTail₀
  show StableHlo.after hostOps1 _ (Proc.devRef .tc main_v4) = _
  after_results
  refine Eq.trans ?_ (shapeCast_shapeCast (G (m ((c : Thread nD τ).loc main_arg0)) (m ((c : Thread nD τ).loc main_arg1))
    (m ((c : Thread nD τ).loc main_arg2))) shapeCasts_S32x512x56x56_S32x512x3136 shapeCasts_S32x512x3136_S32x512x56x56)
  exact congrArg (fun y : S32x512x3136.Idx → EReal => shapeCast S32x512x56x56 y shapeCasts_S32x512x3136_S32x512x56x56) hw

/-! ## The run -/

/-- Every weakly fair execution of the kernel program terminates with its result buffer at `G` of the
    arguments and the arguments unchanged. -/
theorem run : θ_run defs (onTc (τ := τ) (main (F := Ideal))) ⟨m, fun _ => 0, ρ⟩ fun r => ∀ c : Dev nD,
      r.2.mem ((c.tc : Thread nD τ).loc main_v4)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Cam.Kernel

end
-- ==== Proof.lean ====
/-
  Channel attention by pooled statistics: the kernel against its reference, on the extended reals.

  Both programs compute, for activations `x : [32, 512, 56, 56]` and weights `w1 : [32, 512]`, `w2 : [512, 32]`,

    `y(b, c, h, w) = x(b, c, h, w) · σ( mlp(avg(b, ·))(c) + mlp(mx(b, ·))(c) )`,

  where `avg(b, c)` and `mx(b, c)` are the mean and the maximum of the plane `x(b, c, ·, ·)`, `mlp` is the
  two-layer map `s ↦ (∑ k, max (∑ c', s(c') w1(k, c'), 0) · w2(c, k))_c`, and `σ` is the logistic function
  (Proof/Spec.lean states this function, `G`).

  The reference pools over the two spatial axes at once, contracts against `w1` and `w2` along their second
  axes, and spells `σ(z)` as `1 / (1 + e^(-z))` (Proof/RefValue.lean).  The kernel program lays every plane out
  as 3136 entries and transposes both matrices, runs one grid point per batch entry — row sums and row maxima of
  a `[512, 3136]` matrix, two small matrix products per branch, the logistic function as one operation, a
  product with the column of gates (Proof/KernelPayload.lean) — and lays the result back (Proof/KernelValue.lean).
  What joins the two sides is only re-indexing: a sum and a maximum over a plane do not depend on whether its
  entries are listed by pixel or by flat position, the two spellings of each contraction pair the same entries,
  and `1 / (1 + e^(-z))` is the logistic function at every extended real `z`.  Nothing needs the inputs finite,
  so the precondition is never opened.  The kernel's idealization rewrote no operation, so there is nothing to
  preserve beyond the text itself.
-/
import proofs.«153573_j8615704396004_2_alg».proof.Defs
import proofs.«153573_j8615704396004_2_alg».proof.Proof.Gen.Kernel
import proofs.«153573_j8615704396004_2_alg».proof.Proof.Gen.Kernel.Skeleton
import proofs.«153573_j8615704396004_2_alg».proof.Proof.Gen.Kernel.Launch
import proofs.«153573_j8615704396004_2_alg».proof.Proof.Gen.Kernel.Points
import proofs.«153573_j8615704396004_2_alg».proof.Proof.Gen.Kernel.Frame
import proofs.«153573_j8615704396004_2_alg».proof.Proof.Gen.KernelIdeal
import proofs.«153573_j8615704396004_2_alg».proof.Proof.Gen.KernelIdeal.Skeleton
import proofs.«153573_j8615704396004_2_alg».proof.Proof.Gen.KernelIdeal.Launch
import proofs.«153573_j8615704396004_2_alg».proof.Proof.Gen.KernelIdeal.Points
import proofs.«153573_j8615704396004_2_alg».proof.Proof.Gen.KernelIdeal.Frame
import proofs.«153573_j8615704396004_2_alg».proof.Proof.Gen.ReferenceIdeal
import proofs.«153573_j8615704396004_2_alg».proof.Proof.Gen.Pre_finite_inputs
import proofs.«153573_j8615704396004_2_alg».proof.Proof.Gen.ReferenceIdeal.Run
import proofs.«153573_j8615704396004_2_alg».proof.Proof.Gen.ReferenceIdeal.Read
import proofs.«153573_j8615704396004_2_alg».proof.Proof.RefValue
import proofs.«153573_j8615704396004_2_alg».proof.Proof.KernelValue
import Idealize.ShloMosaic.Adequacy
import Idealize.ShloMosaic.Init

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments alone: its run, with the result's equation dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories agreeing on the arguments, both programs end holding `G` of the arguments. -/
theorem algebraic : Cert.algebraic_KernelIdeal_ReferenceIdeal := by
  intro m ρ m' ρ' _ hagree
  refine ⟨_, Cert.Cam.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Cam.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
